-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v6) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S1024x4096 : Shape := ⟨2, ![1024, 4096]⟩
abbrev S4096x4096 : Shape := ⟨2, ![4096, 4096]⟩
abbrev S4096 : Shape := ⟨1, ![4096]⟩
abbrev S_ : Shape := ⟨0, ![]⟩

class Facts : Prop where
  bcast_S_S1024x4096 : S_.BroadcastsInDim S1024x4096 (![] : Fin 0 → Fin S1024x4096.rank)
  reducesTo_S1024x4096_S_d0_1 : S1024x4096.ReducesTo [0, 1] S_
  h_S_ : 0 < S_.numel
  bcast_S_S4096x4096 : S_.BroadcastsInDim S4096x4096 (![] : Fin 0 → Fin S4096x4096.rank)
  reducesTo_S4096x4096_S_d0_1 : S4096x4096.ReducesTo [0, 1] S_
  bcast_S_S4096 : S_.BroadcastsInDim S4096 (![] : Fin 0 → Fin S4096.rank)
  reducesTo_S4096_S_d0 : S4096.ReducesTo [0] S_

variable [Facts]

def fn {F : FTy → Type} [FloatOps F] (main_arg0 : FVec F S1024x4096 .f32) (main_arg1 : FVec F S4096x4096 .f32) (main_arg2 : FVec F S4096 .f32) : IVec S_ 1 :=
  let main_v0 : FVec F S1024x4096 .f32 := Host.absf main_arg0
  let main_cst : FVec F S_ .f32 := constant S_ .f32 0x7F800000#32
  let main_v1 : FVec F S1024x4096 .f32 := broadcastInDim S1024x4096 ![] bcast_S_S1024x4096 main_cst
  let main_v2 : IVec S1024x4096 1 := cmpf .olt main_v0 main_v1
  let main_c : IVec S_ 1 := constantI S_ 1 1#1
  let main_v3 : IVec S_ 1 := (fun x v => Host.reduce IntOp.andi x v reducesTo_S1024x4096_S_d0_1 h_S_) main_v2 main_c
  let main_v4 : FVec F S4096x4096 .f32 := Host.absf main_arg1
  let main_cst_0 : FVec F S_ .f32 := constant S_ .f32 0x7F800000#32
  let main_v5 : FVec F S4096x4096 .f32 := broadcastInDim S4096x4096 ![] bcast_S_S4096x4096 main_cst_0
  let main_v6 : IVec S4096x4096 1 := cmpf .olt main_v4 main_v5
  let main_c_1 : IVec S_ 1 := constantI S_ 1 1#1
  let main_v7 : IVec S_ 1 := (fun x v => Host.reduce IntOp.andi x v reducesTo_S4096x4096_S_d0_1 h_S_) main_v6 main_c_1
  let main_v8 : IVec S_ 1 := andi main_v3 main_v7
  let main_v9 : FVec F S4096 .f32 := Host.absf main_arg2
  let main_cst_2 : FVec F S_ .f32 := constant S_ .f32 0x7F800000#32
  let main_v10 : FVec F S4096 .f32 := broadcastInDim S4096 ![] bcast_S_S4096 main_cst_2
  let main_v11 : IVec S4096 1 := cmpf .olt main_v9 main_v10
  let main_c_3 : IVec S_ 1 := constantI S_ 1 1#1
  let main_v12 : IVec S_ 1 := (fun x v => Host.reduce IntOp.andi x v reducesTo_S4096_S_d0 h_S_) main_v11 main_c_3
  let main_v13 : IVec S_ 1 := andi main_v8 main_v12
  main_v13
-- ==== Kernel.lean ====
abbrev S1024x4096 : Shape := ⟨2, ![1024, 4096]⟩
abbrev S4096x4096 : Shape := ⟨2, ![4096, 4096]⟩
abbrev S4096 : Shape := ⟨1, ![4096]⟩
abbrev S1x4096 : Shape := ⟨2, ![1, 4096]⟩
abbrev S4096x512 : Shape := ⟨2, ![4096, 512]⟩
abbrev S1x512 : Shape := ⟨2, ![1, 512]⟩
abbrev S1024x512 : Shape := ⟨2, ![1024, 512]⟩

abbrev nBuf : Space → Nat
  | .hbm => 5
  | .vmem => 7
  | .smem => 0
  | _ => 0

abbrev bufTy : (tb : Table) → Fin (tcTables nBuf tb) → BufTy
  | .hbm, ⟨0, _⟩ => ⟨S1024x4096, .f32⟩
  | .hbm, ⟨1, _⟩ => ⟨S4096x4096, .f32⟩
  | .hbm, ⟨2, _⟩ => ⟨S4096, .f32⟩
  | .hbm, ⟨3, _⟩ => ⟨S1x4096, .f32⟩
  | .hbm, ⟨4, _⟩ => ⟨S1024x4096, .f32⟩
  | .local _ .vmem, ⟨0, _⟩ => ⟨S1024x4096, .f32⟩
  | .local _ .vmem, ⟨1, _⟩ => ⟨S4096x512, .f32⟩
  | .local _ .vmem, ⟨2, _⟩ => ⟨S4096x512, .f32⟩
  | .local _ .vmem, ⟨3, _⟩ => ⟨S1x512, .f32⟩
  | .local _ .vmem, ⟨4, _⟩ => ⟨S1x512, .f32⟩
  | .local _ .vmem, ⟨5, _⟩ => ⟨S1024x512, .f32⟩
  | .local _ .vmem, ⟨6, _⟩ => ⟨S1024x512, .f32⟩
  | _, _ => ⟨S1024x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_call0_v0 : Ref sig .tc := ⟨.hbm, 3, rfl⟩
abbrev main_v0 : Ref sig .tc := ⟨.hbm, 4, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4
abbrev cc0_sem3_0 : DmaSem sig := 5
abbrev cc0_sem3_1 : DmaSem sig := 6

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

abbrev stage0_0 : Fin 1 → Memref sig .tc .vmem S1024x4096 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 2 → Memref sig .tc .vmem S4096x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S1024x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

class Facts₀ : Prop where
  shapeCasts_S4096_S1x4096 : S4096.ShapeCasts S1x4096
  inb_S1024x4096_S1024x4096_0_0 : ∀ a, (![0, 0] : Fin 2 → Nat) a + S1024x4096.size a ≤ S1024x4096.size a
  h_S1024x4096 : 0 < S1024x4096.numel
  inb_S4096x512_S4096x512_0_0 : ∀ a, (![0, 0] : Fin 2 → Nat) a + S4096x512.size a ≤ S4096x512.size a
  h_S4096x512 : 0 < S4096x512.numel
  inb_S1x512_S1x512_0_0 : ∀ a, (![0, 0] : Fin 2 → Nat) a + S1x512.size a ≤ S1x512.size a
  h_S1x512 : 0 < S1x512.numel
  shapeCasts_S1x512_S1x512 : S1x512.ShapeCasts S1x512
  broadcasts_S1x512_S1024x512 : S1x512.Broadcasts S1024x512
  inb_S1024x512_S1024x512_0_0 : ∀ a, (![0, 0] : Fin 2 → Nat) a + S1024x512.size a ≤ S1024x512.size a
  h_S1024x512 : 0 < S1024x512.numel
  dot_S1024x4096_S4096x512_S1024x512_1_0_0_1_n_n_wf : DotDims.WF S1024x4096 S4096x512 S1024x512 [1] [0] [0] [1] [] []
  hrank0 : 0 < grid0.rank
  hstage0_0 : ∀ j, (stage0_0 j).IsWhole
  nbuf0_0 : grid0.bufCount reads0_0 true = 1
  hreads0_0 : ∀ i i' : grid0.Coords, (∀ a, reads0_0 a = true → i a = i' a) → cc0_transform_0 i = cc0_transform_0 i'
  hinb0_0 : ∀ (i : grid0.Coords) a, (cc0_transform_0 i a + 1) * S1024x4096.size a ≤ S1024x4096.size a
  hwx0_0 : ∀ i : grid0.Coords, EltTy.bits .f32 = 32 ∨ (Rect.block (s := S1024x4096) S1024x4096.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S4096x512.size a ≤ S4096x4096.size a
  hwx0_1 : ∀ i : grid0.Coords, EltTy.bits .f32 = 32 ∨ (Rect.block (s := S4096x4096) S4096x512.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1x512.size a ≤ S1x4096.size a
  hwx0_2 : ∀ i : grid0.Coords, EltTy.bits .f32 = 32 ∨ (Rect.block (s := S1x4096) S1x512.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S1024x512.size a ≤ S1024x4096.size a
  hwx0_3 : ∀ i : grid0.Coords, EltTy.bits .f32 = 32 ∨ (Rect.block (s := S1024x4096) S1024x512.size (cc0_transform_3 i) (hinb0_3 i)).WholeWords (EltTy.packing .f32)

variable [Facts₀]

def dot_S1024x4096_S4096x512_S1024x512_1_0_0_1_n_n : DotDims S1024x4096 S4096x512 S1024x512 where
  lhsContracting := [1]
  rhsContracting := [0]
  lhsNonContracting := [0]
  rhsNonContracting := [1]
  lhsBatch := []
  rhsBatch := []
  wf := dot_S1024x4096_S4096x512_S1024x512_1_0_0_1_n_n_wf

abbrev win0_0 : Pipeline.Window sig grid0 :=
  Pipeline.Window.ofSpec (Memref.whole main_arg0) S1024x4096.size cc0_transform_0 reads0_0 false true 1 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S4096x512.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_call0_v0) S1x512.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v0) S1024x512.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

class Facts : Prop extends Facts₀ where

variable [Facts]
-- ==== ReferenceIdeal.lean ====
abbrev S1024x4096 : Shape := ⟨2, ![1024, 4096]⟩
abbrev S4096x4096 : Shape := ⟨2, ![4096, 4096]⟩
abbrev S4096 : Shape := ⟨1, ![4096]⟩
abbrev S4096x1024 : Shape := ⟨2, ![4096, 1024]⟩
abbrev S1x4096 : Shape := ⟨2, ![1, 4096]⟩

abbrev nBuf : Space → Nat
  | .hbm => 10
  | .vmem => 0
  | .smem => 0
  | _ => 0

abbrev bufTy : (tb : Table) → Fin (tcTables nBuf tb) → BufTy
  | .hbm, ⟨0, _⟩ => ⟨S1024x4096, .f32⟩
  | .hbm, ⟨1, _⟩ => ⟨S4096x4096, .f32⟩
  | .hbm, ⟨2, _⟩ => ⟨S4096, .f32⟩
  | .hbm, ⟨3, _⟩ => ⟨S4096x1024, .f32⟩
  | .hbm, ⟨4, _⟩ => ⟨S4096x4096, .f32⟩
  | .hbm, ⟨5, _⟩ => ⟨S4096x1024, .f32⟩
  | .hbm, ⟨6, _⟩ => ⟨S1024x4096, .f32⟩
  | .hbm, ⟨7, _⟩ => ⟨S1x4096, .f32⟩
  | .hbm, ⟨8, _⟩ => ⟨S1024x4096, .f32⟩
  | .hbm, ⟨9, _⟩ => ⟨S1024x4096, .f32⟩
  | _, _ => ⟨S1024x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩

abbrev nD : Nat := 1
abbrev τ : Topo := Topo.v7x

variable {F : FTy → Type} [FloatOps F]

class Facts₀ : Prop where
  transposes_S1024x4096_S4096x1024_1_0 : S1024x4096.Transposes [1, 0] S4096x1024
  transposes_S4096x4096_S4096x4096_1_0 : S4096x4096.Transposes [1, 0] S4096x4096
  transposes_S4096x1024_S1024x4096_1_0 : S4096x1024.Transposes [1, 0] S1024x4096
  bcast_S4096_S1x4096_1 : S4096.BroadcastsInDim S1x4096 (![1] : Fin 1 → Fin S1x4096.rank)
  bcast_S1x4096_S1024x4096_0_1 : S1x4096.BroadcastsInDim S1024x4096 (![0, 1] : Fin 2 → Fin S1024x4096.rank)
  dot_S4096x4096_S4096x1024_S4096x1024_1_0_0_1_n_n_wf : DotDims.WF S4096x4096 S4096x1024 S4096x1024 [1] [0] [0] [1] [] []

variable [Facts₀]

def dot_S4096x4096_S4096x1024_S4096x1024_1_0_0_1_n_n : DotDims S4096x4096 S4096x1024 S4096x1024 where
  lhsContracting := [1]
  rhsContracting := [0]
  lhsNonContracting := [0]
  rhsNonContracting := [1]
  lhsBatch := []
  rhsBatch := []
  wf := dot_S4096x4096_S4096x1024_S4096x1024_1_0_0_1_n_n_wf

class Facts : Prop extends Facts₀ where

variable [Facts]
-- ==== Proof.LibContract0.lean ====
/-
  A matrix product that contracts the FIRST axis of both operands, over the extended reals and over arbitrary extents:
  for an `[K, R]` array `g` and an `[K, N]` array `h` the entry `(p, q)` of `gᵀ · h` is `∑ s, g s p · h s q`. Beside it
  the product that contracts the left operand's last axis against the right operand's first, `∑ k, x p k · w k q`, for
  operands of any two float formats (over the extended reals a format is only a label).
-/
import Idealize.ShloMosaic.Lib.Pipeline.Value
import Idealize.ShloMosaic.Lib.ValueIdx
import Idealize.ShloMosaic.Lib.ValueLayout
import Idealize.ShloMosaic.PureOps.Ideal.Laws

noncomputable section

namespace Cert.Contract0

open Idealize.ShloMosaic Idealize.ShloMosaic.ValueIdx

/-- A matrix product into a zero accumulator that contracts axis 0 of both operands, read at `(p, q)`: the sum over
    `s` of `g s p · h s q`. The four hypotheses say which operand coordinates the dimension numbers pick. -/
theorem matmul_cols {K R N : ℕ} {φ₁ φ₂ : FTy} (d : DotDims ⟨2, ![K, R]⟩ ⟨2, ![K, N]⟩ ⟨2, ![R, N]⟩)
    (hr : d.contr.rank = 1) (hs : d.contr.size ⟨0, by omega⟩ = K)
    (hl0 : ∀ (j : (⟨2, ![R, N]⟩ : Shape).Idx) (q : d.contr.Idx), (d.lhsIdx j q 0).val = (q ⟨0, by omega⟩).val)
    (hl1 : ∀ (j : (⟨2, ![R, N]⟩ : Shape).Idx) (q : d.contr.Idx), (d.lhsIdx j q 1).val = (j 0).val)
    (hr0 : ∀ (j : (⟨2, ![R, N]⟩ : Shape).Idx) (q : d.contr.Idx), (d.rhsIdx j q 0).val = (q ⟨0, by omega⟩).val)
    (hr1 : ∀ (j : (⟨2, ![R, N]⟩ : Shape).Idx) (q : d.contr.Idx), (d.rhsIdx j q 1).val = (j 1).val)
    (g : FVec Ideal ⟨2, ![K, R]⟩ φ₁) (h : FVec Ideal ⟨2, ![K, N]⟩ φ₂) (p : Fin R) (q : Fin N) :
    matmul d none g h (constant (F := Ideal) ⟨2, ![R, N]⟩ .f32 0x00000000#32) (ix2 p q) = ∑ s : Fin K, g (ix2 s p) * h (ix2 s q) := by
  simp only [matmul]
  rw [Ideal.matmul_constant_zero_apply, ← Equiv.sum_comp (contrEquiv1 d K hr hs).symm]
  refine Finset.sum_congr rfl fun k _ => ?_
  have hk := contrEquiv1_symm_val d K hr hs k
  have el : d.lhsIdx (ix2 p q) ((contrEquiv1 d K hr hs).symm k) = ix2 k p := funext fun a => Fin.ext (by
    match a with
    | ⟨0, _⟩ => exact (hl0 _ _).trans hk
    | ⟨1, _⟩ => exact hl1 _ _)
  have er : d.rhsIdx (ix2 p q) ((contrEquiv1 d K hr hs).symm k) = ix2 k q := funext fun a => Fin.ext (by
    match a with
    | ⟨0, _⟩ => exact (hr0 _ _).trans hk
    | ⟨1, _⟩ => exact hr1 _ _)
  rw [el, er]

/-- A matrix product into a zero accumulator, rows times columns with one contracted axis, read at `(p, q)`: the sum
    over `k` of `x p k · w k q`, for operands of any two formats. -/
theorem matmul_rows {R K N : ℕ} {φ₁ φ₂ : FTy} (d : DotDims ⟨2, ![R, K]⟩ ⟨2, ![K, N]⟩ ⟨2, ![R, N]⟩)
    (hr : d.contr.rank = 1) (hs : d.contr.size ⟨0, by omega⟩ = K)
    (hl0 : ∀ (j : (⟨2, ![R, N]⟩ : Shape).Idx) (q : d.contr.Idx), (d.lhsIdx j q 0).val = (j 0).val)
    (hl1 : ∀ (j : (⟨2, ![R, N]⟩ : Shape).Idx) (q : d.contr.Idx), (d.lhsIdx j q 1).val = (q ⟨0, by omega⟩).val)
    (hr0 : ∀ (j : (⟨2, ![R, N]⟩ : Shape).Idx) (q : d.contr.Idx), (d.rhsIdx j q 0).val = (q ⟨0, by omega⟩).val)
    (hr1 : ∀ (j : (⟨2, ![R, N]⟩ : Shape).Idx) (q : d.contr.Idx), (d.rhsIdx j q 1).val = (j 1).val)
    (x : FVec Ideal ⟨2, ![R, K]⟩ φ₁) (w : FVec Ideal ⟨2, ![K, N]⟩ φ₂) (p : Fin R) (q : Fin N) :
    matmul d none x w (constant (F := Ideal) ⟨2, ![R, N]⟩ .f32 0x00000000#32) (ix2 p q) = ∑ k : Fin K, x (ix2 p k) * w (ix2 k q) := by
  simp only [matmul]
  rw [Ideal.matmul_constant_zero_apply, ← Equiv.sum_comp (contrEquiv1 d K hr hs).symm]
  refine Finset.sum_congr rfl fun k _ => ?_
  have hk := contrEquiv1_symm_val d K hr hs k
  have el : d.lhsIdx (ix2 p q) ((contrEquiv1 d K hr hs).symm k) = ix2 p k := funext fun a => Fin.ext (by
    match a with
    | ⟨0, _⟩ => exact hl0 _ _
    | ⟨1, _⟩ => exact (hl1 _ _).trans hk)
  have er : d.rhsIdx (ix2 p q) ((contrEquiv1 d K hr hs).symm k) = ix2 k q := funext fun a => Fin.ext (by
    match a with
    | ⟨0, _⟩ => exact (hr0 _ _).trans hk
    | ⟨1, _⟩ => exact hr1 _ _)
  rw [el, er]

end Cert.Contract0

end
-- ==== Proof.Affine.lean ====
/-
  The dense layer `x · w + b` over the extended reals, entry by entry: for `x : [1024, 4096]`, `w : [4096, 4096]`
  and `b : [4096]` the entry `(p, q)` is `(∑ k, x p k · w k q) + b q`. The second form sums the same products with
  the factors exchanged; multiplication of extended reals is commutative, so the two agree with no finiteness asked.
-/
import Idealize.ShloMosaic.Lib.ValueIdx
import Idealize.ShloMosaic.PureOps.Ideal

noncomputable section

namespace Cert.Affine

open Idealize.ShloMosaic Idealize.ShloMosaic.ValueIdx

/-- The entry `(p, q)` of `x · w + b`: row `p` of `x` against column `q` of `w`, plus entry `q` of `b`. -/
def affine (x : FVec Ideal ⟨2, ![1024, 4096]⟩ .f32) (w : FVec Ideal ⟨2, ![4096, 4096]⟩ .f32) (b : FVec Ideal ⟨1, ![4096]⟩ .f32) :
    FVec Ideal ⟨2, ![1024, 4096]⟩ .f32 :=
  fun i => (∑ k : Fin 4096, x (ix2 (i 0) k) * w (ix2 k (i 1))) + b (ix1 (i 1))

theorem affine_apply (x : FVec Ideal ⟨2, ![1024, 4096]⟩ .f32) (w : FVec Ideal ⟨2, ![4096, 4096]⟩ .f32) (b : FVec Ideal ⟨1, ![4096]⟩ .f32)
    (p : Fin 1024) (q : Fin 4096) :
    affine x w b (ix2 p q) = (∑ k : Fin 4096, x (ix2 p k) * w (ix2 k q)) + b (ix1 q) := rfl

/-- The same entry with each product's factors exchanged (the form `wᵀ · xᵀ` transposed back produces). -/
theorem affine_apply_comm (x : FVec Ideal ⟨2, ![1024, 4096]⟩ .f32) (w : FVec Ideal ⟨2, ![4096, 4096]⟩ .f32) (b : FVec Ideal ⟨1, ![4096]⟩ .f32)
    (p : Fin 1024) (q : Fin 4096) :
    affine x w b (ix2 p q) = (∑ k : Fin 4096, w (ix2 k q) * x (ix2 p k)) + b (ix1 q) := by
  rw [affine_apply]
  exact congrArg (· + b (ix1 q)) (Finset.sum_congr rfl fun k _ => mul_comm _ _)

end Cert.Affine

end
-- ==== Proof.BodyAffine.lean ====
/-
  One grid point's body: the whole `x : [1024, 4096]` against a block of 512 columns of `w` (a `[4096, 512]` block),
  plus the matching 512 entries of the bias row spread down the 1024 rows. Entry `(p, q)` of the stored
  `[1024, 512]` block is `(∑ k, x p k · wblock k q) + brow 0 q`; when the blocks are the columns
  `col = 512·j + q` of the arrays, that is entry `(p, col)` of the dense layer `x · w + b`.
-/
import proofs.«108818_g51737176048517_cont_8to1_c_1095_14_alg».proof.Proof.Gen.KernelIdeal.Skeleton
import proofs.«108818_g51737176048517_cont_8to1_c_1095_14_alg».proof.Proof.LibContract0
import proofs.«108818_g51737176048517_cont_8to1_c_1095_14_alg».proof.Proof.Affine
import Idealize.ShloMosaic.Lib.ValueLayout

noncomputable section

namespace Cert.KernelIdeal.Body

open Cert.KernelIdeal Cert.KernelIdeal.Gen Idealize.ShloMosaic Idealize.ShloMosaic.ValueIdx Cert.Affine

/-! The product's dimension numbers: the left operand is read at (row of the result, contracted index), the right
    one at (contracted index, column of the result). -/

theorem lhs_row (j : S1024x512.Idx) (s : dot_S1024x4096_S4096x512_S1024x512_1_0_0_1_n_n.contr.Idx) :
    (dot_S1024x4096_S4096x512_S1024x512_1_0_0_1_n_n.lhsIdx j s 0).val = (j 0).val := by
  unfold DotDims.lhsIdx
  rw [dif_neg (show ¬(0 : Fin S1024x4096.rank) ∈ dot_S1024x4096_S4096x512_S1024x512_1_0_0_1_n_n.lhsBatch by decide),
    dif_pos (show (0 : Fin S1024x4096.rank) ∈ dot_S1024x4096_S4096x512_S1024x512_1_0_0_1_n_n.lhsNonContracting by decide)]
  rfl

theorem lhs_contracted (j : S1024x512.Idx) (s : dot_S1024x4096_S4096x512_S1024x512_1_0_0_1_n_n.contr.Idx) :
    (dot_S1024x4096_S4096x512_S1024x512_1_0_0_1_n_n.lhsIdx j s 1).val = (s ⟨0, by decide⟩).val :=
  dot_S1024x4096_S4096x512_S1024x512_1_0_0_1_n_n.lhsIdx_val_of_single rfl j s

theorem rhs_contracted (j : S1024x512.Idx) (s : dot_S1024x4096_S4096x512_S1024x512_1_0_0_1_n_n.contr.Idx) :
    (dot_S1024x4096_S4096x512_S1024x512_1_0_0_1_n_n.rhsIdx j s 0).val = (s ⟨0, by decide⟩).val :=
  dot_S1024x4096_S4096x512_S1024x512_1_0_0_1_n_n.rhsIdx_val_of_single rfl j s

theorem rhs_col (j : S1024x512.Idx) (s : dot_S1024x4096_S4096x512_S1024x512_1_0_0_1_n_n.contr.Idx) :
    (dot_S1024x4096_S4096x512_S1024x512_1_0_0_1_n_n.rhsIdx j s 1).val = (j 1).val := by
  unfold DotDims.rhsIdx
  rw [dif_neg (show ¬(1 : Fin S4096x512.rank) ∈ dot_S1024x4096_S4096x512_S1024x512_1_0_0_1_n_n.rhsBatch by decide),
    dif_pos (show (1 : Fin S4096x512.rank) ∈ dot_S1024x4096_S4096x512_S1024x512_1_0_0_1_n_n.rhsNonContracting by decide)]
  rfl

/-- The stored block at `(p, q)`: row `p` of the left block against column `q` of the right block, plus the row
    block's entry `q`. -/
theorem body_entry (x0 : Vec Ideal S1024x4096 .f32) (x1 : Vec Ideal S4096x512 .f32) (x2 : Vec Ideal S1x512 .f32)
    (p : Fin 1024) (q : Fin 512) :
    k0_pay1 x0 x1 x2 (ix2 p q) = (∑ k : Fin 4096, x0 (ix2 p k) * x1 (ix2 k q)) + x2 (ix2 (0 : Fin 1) q) := by
  unfold k0_pay1
  show matmul dot_S1024x4096_S4096x512_S1024x512_1_0_0_1_n_n none x0 x1 (constant (F := Ideal) S1024x512 .f32 0x00000000#32) (ix2 p q)
      + broadcastTo S1024x512 (shapeCast S1x512 x2 shapeCasts_S1x512_S1x512) broadcasts_S1x512_S1024x512 (ix2 p q) = _
  rw [shapeCast_self, broadcastTo_1b_ab_apply,
    Cert.Contract0.matmul_rows dot_S1024x4096_S4096x512_S1024x512_1_0_0_1_n_n rfl rfl lhs_row lhs_contracted rhs_contracted rhs_col]

/-- The same entry when the blocks are pieces of whole arrays `X`, `W` and of the bias `B` laid as a row `R`:
    with `col` the array column the block's column `q` sits at, it is entry `(p, col)` of `X · W + B`. -/
theorem block_entry (X : FVec Ideal ⟨2, ![1024, 4096]⟩ .f32) (W : FVec Ideal ⟨2, ![4096, 4096]⟩ .f32) (B : FVec Ideal ⟨1, ![4096]⟩ .f32)
    (x0 : Vec Ideal S1024x4096 .f32) (x1 : Vec Ideal S4096x512 .f32) (x2 : Vec Ideal S1x512 .f32)
    (p : Fin 1024) (q : Fin 512) (col : Fin 4096)
    (h0 : ∀ k : Fin 4096, x0 (ix2 p k) = X (ix2 p k))
    (h1 : ∀ k : Fin 4096, x1 (ix2 k q) = W (ix2 k col))
    (h2 : x2 (ix2 (0 : Fin 1) q) = B (ix1 col)) :
    k0_pay1 x0 x1 x2 (ix2 p q) = affine X W B (ix2 p col) := by
  rw [body_entry, affine_apply, h2]
  exact congrArg (· + B (ix1 col)) (Finset.sum_congr rfl fun k _ => by rw [h0, h1])

end Cert.KernelIdeal.Body

end
-- ==== Proof.ArrayAffine.lean ====
/-
  From blocks to the array. The grid has 8 points; point `j` holds the whole `x`, the columns `512·j … 512·j + 511`
  of `w` and of the bias row, and writes back the same columns of the output. Every written block is the matching
  block of the one function `x · w + b` of the argument arrays, and the 8 column blocks cover the output, so the
  output array ends holding `x · w + b`. The bias row the region finds is the bias vector viewed as `[1, 4096]`.
-/
import proofs.«108818_g51737176048517_cont_8to1_c_1095_14_alg».proof.Proof.Gen.KernelIdeal.Value
import proofs.«108818_g51737176048517_cont_8to1_c_1095_14_alg».proof.Proof.BodyAffine
import Idealize.ShloMosaic.Lib.StableHlo.Run

set_option maxRecDepth 16384

noncomputable section

namespace Cert.KernelIdeal.ArrayValue

open Cert.KernelIdeal Cert.KernelIdeal.Gen Idealize.ShloMosaic Idealize.ShloMosaic.TcCoe Idealize.SL.Sem
open Idealize.ShloMosaic.ValueIdx Cert.Affine
open Idealize.ShloMosaic.Pipeline (Dat)

variable (m : (ℓ : Loc nD τ sig) → Buf (Elt Ideal) ℓ) (ρ : Dev nD → PrngReg)

theorem zero_offsets : (![0, 0] : Fin 2 → Nat) = fun _ => 0 := funext fun a => by fin_cases a <;> rfl

/-- The bias row as the region finds it: the bias vector's 4096 entries laid as one row. -/
theorem bias_row (c : Dev nD) :
    (V m c main_call0_v0 : S1x4096.Idx → EReal)
      = shapeCast S1x4096 (m ((c : Thread nD τ).loc main_arg2)) shapeCasts_S4096_S1x4096 := by
  dsimp only [Gen.V, Gen.hostOps0]; after_results; rfl

/-- Where each window's block sits at a point: `x`'s is the whole array; `w`'s, the bias row's and the output's sit
    at one and the same column block, one of the 8. -/
theorem index_facts : ∀ t : Fin cfg0.N,
    win0_0.index t (0 : Fin 2) = 0 ∧ win0_0.index t (1 : Fin 2) = 0
    ∧ win0_1.index t (0 : Fin 2) = 0 ∧ win0_1.index t (1 : Fin 2) = win0_3.index t (1 : Fin 2)
    ∧ win0_2.index t (0 : Fin 2) = 0 ∧ win0_2.index t (1 : Fin 2) = win0_3.index t (1 : Fin 2)
    ∧ win0_3.index t (0 : Fin 2) = 0 ∧ win0_3.index t (1 : Fin 2) ≤ 7 :=
  (by decide +kernel : ∀ t : Fin grid0.N, _)

/-- Each of the 8 column blocks of the output is some point's. -/
theorem index_onto : ∀ j : Fin 8, ∃ t : Fin cfg0.N, win0_3.index t = ![0, j.val] :=
  (by decide +kernel : ∀ j : Fin 8, ∃ t : Fin grid0.N, win0_3.index t = ![0, j.val])

/-- What point `t` writes back is its block of `x · w + b`. -/
theorem flushed_affine (c : Dev nD) (t : Fin cfg0.N) :
    (dats m 0 c).flushed 3 t = ((cfg0.win 3).blk t).view.read (Elt Ideal)
      (affine (m ((c : Thread nD τ).loc main_arg0)) (m ((c : Thread nD τ).loc main_arg1)) (m ((c : Thread nD τ).loc main_arg2))) := by
  rw [Value.flushed3]
  unfold out0_3
  rw [View.canon_unit_zero zero_offsets]
  simp only [View.ld_unit_zero (S := S1024x4096) zero_offsets, View.ld_unit_zero (S := S4096x512) zero_offsets,
    View.ld_unit_zero (S := S1x512) zero_offsets]
  obtain ⟨e00, e01, e10, e11, e20, e21, e30, e31⟩ := index_facts t
  funext j
  obtain ⟨p, q, rfl⟩ : ∃ (p : Fin 1024) (q : Fin 512), j = ix2 p q := ⟨j 0, j 1, eq_ix2 j⟩
  have hcol : win0_3.index t (1 : Fin 2) * 512 + q.val < 4096 := by have := q.isLt; omega
  show k0_pay1 (iblk m c 0 t) (iblk m c 1 t) (iblk m c 2 t) (ix2 p q)
    = affine (m ((c : Thread nD τ).loc main_arg0)) (m ((c : Thread nD τ).loc main_arg1)) (m ((c : Thread nD τ).loc main_arg2))
        (((cfg0.win 3).blk t).view.emb (ix2 p q))
  have hemb : ((cfg0.win 3).blk t).view.emb (ix2 p q)
      = ix2 p (⟨win0_3.index t (1 : Fin 2) * 512 + q.val, hcol⟩ : Fin 4096) := by
    funext a; apply Fin.ext
    match a with
    | ⟨0, _⟩ => show win0_3.index t (0 : Fin 2) * 1024 + 1 * p.val = p.val; omega
    | ⟨1, _⟩ => show win0_3.index t (1 : Fin 2) * 512 + 1 * q.val = win0_3.index t (1 : Fin 2) * 512 + q.val; omega
  rw [hemb]
  refine Body.block_entry _ _ _ (iblk m c 0 t) (iblk m c 1 t) (iblk m c 2 t) p q _ ?_ ?_ ?_
  · intro k
    show V m c main_arg0 (((cfg0.win 0).blk t).view.emb (ix2 p k)) = m ((c : Thread nD τ).loc main_arg0) (ix2 p k)
    rw [V_main_arg0]
    refine congrArg _ (funext fun a => Fin.ext ?_)
    match a with
    | ⟨0, _⟩ => show win0_0.index t (0 : Fin 2) * 1024 + 1 * p.val = p.val; omega
    | ⟨1, _⟩ => show win0_0.index t (1 : Fin 2) * 4096 + 1 * k.val = k.val; omega
  · intro k
    show V m c main_arg1 (((cfg0.win 1).blk t).view.emb (ix2 k q))
      = m ((c : Thread nD τ).loc main_arg1) (ix2 k (⟨win0_3.index t (1 : Fin 2) * 512 + q.val, hcol⟩ : Fin 4096))
    rw [V_main_arg1]
    refine congrArg _ (funext fun a => Fin.ext ?_)
    match a with
    | ⟨0, _⟩ => show win0_1.index t (0 : Fin 2) * 4096 + 1 * k.val = k.val; omega
    | ⟨1, _⟩ => show win0_1.index t (1 : Fin 2) * 512 + 1 * q.val = win0_3.index t (1 : Fin 2) * 512 + q.val; omega
  · show V m c main_call0_v0 (((cfg0.win 2).blk t).view.emb (ix2 (0 : Fin 1) q))
      = m ((c : Thread nD τ).loc main_arg2) (ix1 (⟨win0_3.index t (1 : Fin 2) * 512 + q.val, hcol⟩ : Fin 4096))
    have hrow : ((cfg0.win 2).blk t).view.emb (ix2 (0 : Fin 1) q)
        = ix2 (0 : Fin 1) (⟨win0_3.index t (1 : Fin 2) * 512 + q.val, hcol⟩ : Fin 4096) := by
      funext a; apply Fin.ext
      match a with
      | ⟨0, _⟩ => show win0_2.index t (0 : Fin 2) * 1 + 1 * 0 = 0; omega
      | ⟨1, _⟩ => show win0_2.index t (1 : Fin 2) * 512 + 1 * q.val = win0_3.index t (1 : Fin 2) * 512 + q.val; omega
    rw [hrow, bias_row, shapeCast_a_1a_apply]

/-- An index of the output is in point `t`'s block iff each coordinate is in the block's range on its axis. -/
theorem mem_block (t : Fin cfg0.N) (i : S1024x4096.Idx) :
    i ∈ ((cfg0.win 3).blk t).view.set ↔ ∀ a : Fin 2, win0_3.index t a * S1024x512.size a ≤ (i a).val
      ∧ (i a).val < win0_3.index t a * S1024x512.size a + S1024x512.size a := by
  show i ∈ ((View.whole main_v0).slice (win0_3.rect t)).set ↔ _
  rw [View.set_slice_whole, Rect.mem_set_unit]
  exact Iff.rfl

/-- Every index of the output is written: column `n` belongs to the block `n / 512`. -/
theorem cover (i : S1024x4096.Idx) :
    ∃ t : Fin cfg0.N, (cfg0.win 3).flush t = true ∧ i ∈ ((cfg0.win 3).blk t).view.set := by
  have hi0 : (i 0).val < 1024 := (i 0).isLt
  have hi1 : (i 1).val < 4096 := (i 1).isLt
  obtain ⟨t, ht⟩ := index_onto ⟨(i 1).val / 512, by omega⟩
  have q0 : win0_3.index t (0 : Fin 2) = 0 := congrFun ht 0
  have q1 : win0_3.index t (1 : Fin 2) = (i 1).val / 512 := congrFun ht 1
  refine ⟨t, flush0_3 t, ?_⟩
  rw [mem_block]
  intro a
  match a with
  | ⟨0, _⟩ =>
    show win0_3.index t (0 : Fin 2) * 1024 ≤ (i 0).val ∧ (i 0).val < win0_3.index t (0 : Fin 2) * 1024 + 1024
    omega
  | ⟨1, _⟩ =>
    show win0_3.index t (1 : Fin 2) * 512 ≤ (i 1).val ∧ (i 1).val < win0_3.index t (1 : Fin 2) * 512 + 512
    omega

/-- The output array after the run is `x · w + b` of the argument arrays. -/
theorem final_affine (c : Dev nD) :
    (dats m 0 c).arrAt 3 cfg0.N
      = affine (m ((c : Thread nD τ).loc main_arg0)) (m ((c : Thread nD τ).loc main_arg1)) (m ((c : Thread nD τ).loc main_arg2)) :=
  (dats m 0 c).arrAt_eq_of_cover 3 _ (fun t _ => flushed_affine m c t) cover

/-- The kernel's run: the result is `x · w + b`, the arguments are unchanged. -/
theorem run : θ_run defs (onTc (τ := τ) (main (F := Ideal))) ⟨m, fun _ => 0, ρ⟩ fun r => ∀ c : Dev nD,
      r.2.mem ((c : Thread nD τ).loc main_v0)
        = affine (m ((c : Thread nD τ).loc main_arg0)) (m ((c : Thread nD τ).loc main_arg1)) (m ((c : Thread nD τ).loc main_arg2))
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2) :=
  (θ_run defs _ _).mono (fun r h c => ⟨(h c).1.trans (final_affine m c), (h c).2⟩) (Value.run_blocks m ρ)

end Cert.KernelIdeal.ArrayValue

end
-- ==== Proof.RefAffine.lean ====
/-
  The reference computes `(wᵀ · xᵀ)ᵀ + b`: it transposes both operands, multiplies `wᵀ : [4096, 4096]` by
  `xᵀ : [4096, 1024]`, transposes the product back and adds the bias spread down the rows. Read at `(p, q)` the
  product is `∑ k, w k q · x p k`: the dense layer's entry with each product's factors exchanged.
-/
import proofs.«108818_g51737176048517_cont_8to1_c_1095_14_alg».proof.Proof.Gen.ReferenceIdeal.Read
import proofs.«108818_g51737176048517_cont_8to1_c_1095_14_alg».proof.Proof.Affine

noncomputable section

namespace Cert.ReferenceIdeal.RefValue

open Cert.ReferenceIdeal Cert.ReferenceIdeal.Read Idealize.ShloMosaic Idealize.ShloMosaic.ValueIdx Cert.Affine

/-- Entry `(p, q)` of the transposed-back product reads `wᵀ` at `(q, k)`, which is `w` at `(k, q)`. -/
theorem weight_index (p : Fin 1024) (q k : Fin 4096) :
    idx_main_v1 (lidx_main_v2 (idx_main_v3 (ix2 p q)) k) = ix2 k q :=
  funext fun a => Fin.ext (by match a with | ⟨0, _⟩ => rfl | ⟨1, _⟩ => rfl)

/-- and `xᵀ` at `(k, p)`, which is `x` at `(p, k)`. -/
theorem input_index (p : Fin 1024) (q k : Fin 4096) :
    idx_main_v0 (ridx_main_v2 (idx_main_v3 (ix2 p q)) k) = ix2 p k :=
  funext fun a => Fin.ext (by match a with | ⟨0, _⟩ => rfl | ⟨1, _⟩ => rfl)

/-- The bias spread to `[1, 4096]` and then down the 1024 rows reads, at `(p, q)`, the bias at `q`. -/
theorem bias_index (p : Fin 1024) (q : Fin 4096) : idx_main_v4 (idx_main_v5 (ix2 p q)) = ix1 q :=
  funext fun a => Fin.ext (by match a with | ⟨0, _⟩ => rfl)

/-- The reference's result, over the extended reals, is the dense layer `x · w + b`. -/
theorem reference_affine (x : FVec Ideal S1024x4096 .f32) (w : FVec Ideal S4096x4096 .f32) (b : FVec Ideal S4096 .f32) :
    val_main_v6 (F := Ideal) x w b = affine x w b := by
  funext i
  obtain ⟨p, q, rfl⟩ : ∃ (p : Fin 1024) (q : Fin 4096), i = ix2 p q := ⟨i 0, i 1, eq_ix2 i⟩
  rw [affine_apply_comm, val_main_v6_apply, val_main_v3_apply, val_main_v2_apply, val_main_v5_apply, val_main_v4_apply]
  simp only [val_main_v1_apply, val_main_v0_apply, weight_index, input_index, bias_index, Ideal.addf_def]

end Cert.ReferenceIdeal.RefValue

end
-- ==== Proof.lean ====
/-
  The kernel computes the dense layer `out = x · w + b` for `x : [1024, 4096]`, `w : [4096, 4096]`, `b : [4096]`, eight
  column blocks of 512 at a time: at each grid point the whole `x` is multiplied by a `[4096, 512]` block of `w` into a
  zero accumulator and the matching 512 bias entries, laid as a row, are added down the 1024 rows. The reference
  transposes both operands, multiplies `wᵀ · xᵀ`, transposes the product back and adds the bias spread down the rows.

  Over the extended reals both results are, at every entry `(p, q)`,

      (∑ k, x p k · w k q) + b q

  — the kernel's with the factors in this order (Proof/BodyAffine.lean for one block, Proof/ArrayAffine.lean for the
  eight blocks covering the output), the reference's with each product's factors exchanged (Proof/RefAffine.lean).
  The one law between them is the commutativity of the product of extended reals (Proof/Affine.lean), which holds at
  the infinities too: finiteness of the inputs is never used. The order of the 4096 terms of a sum is the same on both
  sides. The idealization changed no operation, so there is nothing to preserve beyond the text itself.
-/
import proofs.«108818_g51737176048517_cont_8to1_c_1095_14_alg».proof.Defs
import proofs.«108818_g51737176048517_cont_8to1_c_1095_14_alg».proof.Proof.Gen.Kernel
import proofs.«108818_g51737176048517_cont_8to1_c_1095_14_alg».proof.Proof.Gen.Kernel.Frame
import proofs.«108818_g51737176048517_cont_8to1_c_1095_14_alg».proof.Proof.Gen.KernelIdeal
import proofs.«108818_g51737176048517_cont_8to1_c_1095_14_alg».proof.Proof.Gen.KernelIdeal.Frame
import proofs.«108818_g51737176048517_cont_8to1_c_1095_14_alg».proof.Proof.Gen.ReferenceIdeal
import proofs.«108818_g51737176048517_cont_8to1_c_1095_14_alg».proof.Proof.Gen.ReferenceIdeal.Run
import proofs.«108818_g51737176048517_cont_8to1_c_1095_14_alg».proof.Proof.Gen.ReferenceIdeal.Read
import proofs.«108818_g51737176048517_cont_8to1_c_1095_14_alg».proof.Proof.Gen.Pre_finite_inputs
import proofs.«108818_g51737176048517_cont_8to1_c_1095_14_alg».proof.Proof.ArrayAffine
import proofs.«108818_g51737176048517_cont_8to1_c_1095_14_alg».proof.Proof.RefAffine
import Idealize.ShloMosaic.Adequacy
import Idealize.ShloMosaic.Init

noncomputable section

namespace Cert.Proof

open Idealize.ShloMosaic Idealize.ShloMosaic.TcCoe Idealize.SL.Sem

/-- The kernel as printed runs to the end without a fault and leaves its three arguments as they were. -/
theorem frame_kernel : Cert.frame_Kernel := fun m ρ _ => Cert.Kernel.Gen.frame m ρ

/-- So does the kernel read over the extended reals. -/
theorem frame_kernel_ideal : Cert.frame_KernelIdeal := fun m ρ _ => Cert.KernelIdeal.Gen.frame m ρ

/-- The reference is a straight line of seven host operations: it runs to the end and writes no argument. -/
theorem frame_reference : Cert.frame_ReferenceIdeal := fun m ρ _ =>
  (θ_run Cert.ReferenceIdeal.defs _ _).mono (fun _ h c => (h c).2) (Cert.ReferenceIdeal.Value.run (F := Ideal) m ρ)

/-- No operation was rewritten when the kernel was idealized. -/
theorem preserves : Cert.preserves_Kernel_KernelIdeal := trivial

/-- From memories agreeing on `x`, `w` and `b`, both programs end with the result `x · w + b`. -/
theorem algebraic : Cert.algebraic_KernelIdeal_ReferenceIdeal := by
  intro m ρ m' ρ' _ hagree
  refine ⟨_, Cert.KernelIdeal.ArrayValue.run m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v6_eq, Cert.ReferenceIdeal.RefValue.reference_affine,
    (hagree c).1, (hagree c).2.1, (hagree c).2.2]

theorem claim : Cert.Claim :=
  ⟨Cert.Kernel.Gen.facts, Cert.KernelIdeal.Gen.facts, Cert.ReferenceIdeal.Gen.facts, Cert.Pre_finite_inputs.Gen.facts,
    frame_kernel, frame_kernel_ideal, frame_reference, preserves, algebraic⟩

end Cert.Proof

end
